-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x131072x128 : Shape := ⟨4, ![1, 8, 131072, 128]⟩
abbrev S1x256x512x1 : Shape := ⟨4, ![1, 256, 512, 1]⟩
abbrev S_ : Shape := ⟨0, ![]⟩

class Facts : Prop where
  bcast_S_S1x8x131072x128 : S_.BroadcastsInDim S1x8x131072x128 (![] : Fin 0 → Fin S1x8x131072x128.rank)
  reducesTo_S1x8x131072x128_S_d0_1_2_3 : S1x8x131072x128.ReducesTo [0, 1, 2, 3] S_
  h_S_ : 0 < S_.numel
  bcast_S_S1x256x512x1 : S_.BroadcastsInDim S1x256x512x1 (![] : Fin 0 → Fin S1x256x512x1.rank)
  reducesTo_S1x256x512x1_S_d0_1_2_3 : S1x256x512x1.ReducesTo [0, 1, 2, 3] S_

variable [Facts]

def fn {F : FTy → Type} [FloatOps F] (main_arg0 : FVec F S1x8x131072x128 .f32) (main_arg1 : FVec F S1x256x512x1 .f32) : IVec S_ 1 :=
  let main_v0 : FVec F S1x8x131072x128 .f32 := Host.absf main_arg0
  let main_cst : FVec F S_ .f32 := constant S_ .f32 0x7F800000#32
  let main_v1 : FVec F S1x8x131072x128 .f32 := broadcastInDim S1x8x131072x128 ![] bcast_S_S1x8x131072x128 main_cst
  let main_v2 : IVec S1x8x131072x128 1 := cmpf .olt main_v0 main_v1
  let main_c : IVec S_ 1 := constantI S_ 1 1#1
  let main_v3 : IVec S_ 1 := (fun x v => Host.reduce IntOp.andi x v reducesTo_S1x8x131072x128_S_d0_1_2_3 h_S_) main_v2 main_c
  let main_v4 : FVec F S1x256x512x1 .f32 := Host.absf main_arg1
  let main_cst_0 : FVec F S_ .f32 := constant S_ .f32 0x7F800000#32
  let main_v5 : FVec F S1x256x512x1 .f32 := broadcastInDim S1x256x512x1 ![] bcast_S_S1x256x512x1 main_cst_0
  let main_v6 : IVec S1x256x512x1 1 := cmpf .olt main_v4 main_v5
  let main_c_1 : IVec S_ 1 := constantI S_ 1 1#1
  let main_v7 : IVec S_ 1 := (fun x v => Host.reduce IntOp.andi x v reducesTo_S1x256x512x1_S_d0_1_2_3 h_S_) main_v6 main_c_1
  let main_v8 : IVec S_ 1 := andi main_v3 main_v7
  main_v8
-- ==== Kernel.lean ====
abbrev S1x8x131072x128 : Shape := ⟨4, ![1, 8, 131072, 128]⟩
abbrev S1x256x512x1 : Shape := ⟨4, ![1, 256, 512, 1]⟩
abbrev S1x256x512 : Shape := ⟨3, ![1, 256, 512]⟩
abbrev S_ : Shape := ⟨0, ![]⟩
abbrev S131072x1 : Shape := ⟨2, ![131072, 1]⟩
abbrev S8x131072 : Shape := ⟨2, ![8, 131072]⟩
abbrev S1x8x2048x128 : Shape := ⟨4, ![1, 8, 2048, 128]⟩
abbrev S2048x1 : Shape := ⟨2, ![2048, 1]⟩
abbrev S8x2048 : Shape := ⟨2, ![8, 2048]⟩
abbrev S8x2048x128 : Shape := ⟨3, ![8, 2048, 128]⟩
abbrev S2048x128 : Shape := ⟨2, ![2048, 128]⟩
abbrev S1x2048x128 : Shape := ⟨3, ![1, 2048, 128]⟩
abbrev S1x8x256x512 : Shape := ⟨4, ![1, 8, 256, 512]⟩

abbrev nBuf : Space → Nat
  | .hbm => 9
  | .vmem => 6
  | .smem => 0
  | _ => 0

abbrev bufTy : (tb : Table) → Fin (tcTables nBuf tb) → BufTy
  | .hbm, ⟨0, _⟩ => ⟨S1x8x131072x128, .f32⟩
  | .hbm, ⟨1, _⟩ => ⟨S1x256x512x1, .f32⟩
  | .hbm, ⟨2, _⟩ => ⟨S1x256x512, .f32⟩
  | .hbm, ⟨3, _⟩ => ⟨S_, .f32⟩
  | .hbm, ⟨4, _⟩ => ⟨S1x256x512, .f32⟩
  | .hbm, ⟨5, _⟩ => ⟨S1x256x512, .f32⟩
  | .hbm, ⟨6, _⟩ => ⟨S131072x1, .f32⟩
  | .hbm, ⟨7, _⟩ => ⟨S8x131072, .f32⟩
  | .hbm, ⟨8, _⟩ => ⟨S1x8x256x512, .f32⟩
  | .local _ .vmem, ⟨0, _⟩ => ⟨S1x8x2048x128, .f32⟩
  | .local _ .vmem, ⟨1, _⟩ => ⟨S1x8x2048x128, .f32⟩
  | .local _ .vmem, ⟨2, _⟩ => ⟨S2048x1, .f32⟩
  | .local _ .vmem, ⟨3, _⟩ => ⟨S2048x1, .f32⟩
  | .local _ .vmem, ⟨4, _⟩ => ⟨S8x2048, .f32⟩
  | .local _ .vmem, ⟨5, _⟩ => ⟨S8x2048, .f32⟩
  | _, _ => ⟨S1x8x131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x256x512x1_S1x256x512 : S1x256x512x1.ShapeCasts S1x256x512
  bcast_S_S1x256x512 : S_.BroadcastsInDim S1x256x512 (![] : Fin 0 → Fin S1x256x512.rank)
  shapeCasts_S1x256x512_S131072x1 : S1x256x512.ShapeCasts S131072x1
  inb_S1x8x2048x128_S1x8x2048x128_0_0_0_0 : ∀ a, (![0, 0, 0, 0] : Fin 4 → Nat) a + S1x8x2048x128.size a ≤ S1x8x2048x128.size a
  h_S1x8x2048x128 : 0 < S1x8x2048x128.numel
  shapeCasts_S1x8x2048x128_S8x2048x128 : S1x8x2048x128.ShapeCasts S8x2048x128
  iota_S2048x128_d1_w32 : S2048x128.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  shapeCasts_S2048x128_S1x2048x128 : S2048x128.ShapeCasts S1x2048x128
  broadcasts_S1x2048x128_S8x2048x128 : S1x2048x128.Broadcasts S8x2048x128
  reduces_S8x2048x128_S8x2048 : S8x2048x128.Reduces [2] S8x2048
  inb_S8x2048_S8x2048_0_0 : ∀ a, (![0, 0] : Fin 2 → Nat) a + S8x2048.size a ≤ S8x2048.size a
  h_S8x2048 : 0 < S8x2048.numel
  shapeCasts_S8x131072_S1x8x256x512 : S8x131072.ShapeCasts S1x8x256x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x2048x128.size a ≤ S1x8x131072x128.size a
  hwx0_0 : ∀ i : grid0.Coords, EltTy.bits .f32 = 32 ∨ (Rect.block (s := S1x8x131072x128) S1x8x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .f32 = 32 ∨ (Rect.block (s := S131072x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x131072.size a
  hwx0_2 : ∀ i : grid0.Coords, EltTy.bits .f32 = 32 ∨ (Rect.block (s := S8x131072) S8x2048.size (cc0_transform_2 i) (hinb0_2 i)).WholeWords (EltTy.packing .f32)

variable [Facts₀]

abbrev win0_0 : Pipeline.Window sig grid0 :=
  Pipeline.Window.ofSpec (Memref.whole main_arg0) S1x8x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x8x131072x128 : Shape := ⟨4, ![1, 8, 131072, 128]⟩
abbrev S1x256x512x1 : Shape := ⟨4, ![1, 256, 512, 1]⟩
abbrev S1x8x256x512x128 : Shape := ⟨5, ![1, 8, 256, 512, 128]⟩
abbrev S1x256x512 : Shape := ⟨3, ![1, 256, 512]⟩
abbrev S_ : Shape := ⟨0, ![]⟩
abbrev S1x1x256x512x1 : Shape := ⟨5, ![1, 1, 256, 512, 1]⟩
abbrev S256x512x1x1 : Shape := ⟨4, ![256, 512, 1, 1]⟩
abbrev S1 : Shape := ⟨1, ![1]⟩
abbrev S1x1x1x1 : Shape := ⟨4, ![1, 1, 1, 1]⟩
abbrev S256x512x1 : Shape := ⟨3, ![256, 512, 1]⟩
abbrev S1x8x256x512x1 : Shape := ⟨5, ![1, 8, 256, 512, 1]⟩
abbrev S1x8x256x512 : Shape := ⟨4, ![1, 8, 256, 512]⟩
abbrev S1x1x256x512 : Shape := ⟨4, ![1, 1, 256, 512]⟩

abbrev nBuf : Space → Nat
  | .hbm => 107
  | .vmem => 0
  | .smem => 0
  | _ => 0

abbrev bufTy : (tb : Table) → Fin (tcTables nBuf tb) → BufTy
  | .hbm, ⟨0, _⟩ => ⟨S1x8x131072x128, .f32⟩
  | .hbm, ⟨1, _⟩ => ⟨S1x256x512x1, .f32⟩
  | .hbm, ⟨2, _⟩ => ⟨S1x8x256x512x128, .f32⟩
  | .hbm, ⟨3, _⟩ => ⟨S1x256x512, .f32⟩
  | .hbm, ⟨4, _⟩ => ⟨S_, .f32⟩
  | .hbm, ⟨5, _⟩ => ⟨S1x256x512, .f32⟩
  | .hbm, ⟨6, _⟩ => ⟨S1x256x512, .f32⟩
  | .hbm, ⟨7, _⟩ => ⟨S1x256x512, .f32⟩
  | .hbm, ⟨8, _⟩ => ⟨S1x256x512, .f32⟩
  | .hbm, ⟨9, _⟩ => ⟨S1x256x512, .i32⟩
  | .hbm, ⟨10, _⟩ => ⟨S_, .i32⟩
  | .hbm, ⟨11, _⟩ => ⟨S1x256x512, .i32⟩
  | .hbm, ⟨12, _⟩ => ⟨S1x256x512, .i32⟩
  | .hbm, ⟨13, _⟩ => ⟨S_, .i32⟩
  | .hbm, ⟨14, _⟩ => ⟨S1x256x512, .i32⟩
  | .hbm, ⟨15, _⟩ => ⟨S1x256x512, .i1⟩
  | .hbm, ⟨16, _⟩ => ⟨S_, .i32⟩
  | .hbm, ⟨17, _⟩ => ⟨S1x256x512, .i32⟩
  | .hbm, ⟨18, _⟩ => ⟨S1x256x512, .i1⟩
  | .hbm, ⟨19, _⟩ => ⟨S1x256x512, .i1⟩
  | .hbm, ⟨20, _⟩ => ⟨S1x256x512, .f32⟩
  | .hbm, ⟨21, _⟩ => ⟨S_, .i32⟩
  | .hbm, ⟨22, _⟩ => ⟨S1x256x512, .i32⟩
  | .hbm, ⟨23, _⟩ => ⟨S1x256x512, .i1⟩
  | .hbm, ⟨24, _⟩ => ⟨S_, .i32⟩
  | .hbm, ⟨25, _⟩ => ⟨S1x256x512, .i32⟩
  | .hbm, ⟨26, _⟩ => ⟨S1x256x512, .i1⟩
  | .hbm, ⟨27, _⟩ => ⟨S1x256x512, .i1⟩
  | .hbm, ⟨28, _⟩ => ⟨S1x256x512, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x256x512, .i32⟩
  | .hbm, ⟨33, _⟩ => ⟨S1x256x512, .i32⟩
  | .hbm, ⟨34, _⟩ => ⟨S_, .i32⟩
  | .hbm, ⟨35, _⟩ => ⟨S1x256x512, .i32⟩
  | .hbm, ⟨36, _⟩ => ⟨S1x256x512, .i32⟩
  | .hbm, ⟨37, _⟩ => ⟨S1x1x256x512x1, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x256x512, .i32⟩
  | .hbm, ⟨42, _⟩ => ⟨S1x256x512, .i32⟩
  | .hbm, ⟨43, _⟩ => ⟨S_, .i32⟩
  | .hbm, ⟨44, _⟩ => ⟨S1x256x512, .i32⟩
  | .hbm, ⟨45, _⟩ => ⟨S1x256x512, .i32⟩
  | .hbm, ⟨46, _⟩ => ⟨S1x1x256x512x1, .i32⟩
  | .hbm, ⟨47, _⟩ => ⟨S_, .i32⟩
  | .hbm, ⟨48, _⟩ => ⟨S1x1x256x512x1, .i32⟩
  | .hbm, ⟨49, _⟩ => ⟨S1x1x256x512x1, .i1⟩
  | .hbm, ⟨50, _⟩ => ⟨S_, .i32⟩
  | .hbm, ⟨51, _⟩ => ⟨S1x1x256x512x1, .i32⟩
  | .hbm, ⟨52, _⟩ => ⟨S1x1x256x512x1, .i32⟩
  | .hbm, ⟨53, _⟩ => ⟨S1x1x256x512x1, .i32⟩
  | .hbm, ⟨54, _⟩ => ⟨S256x512x1x1, .i32⟩
  | .hbm, ⟨55, _⟩ => ⟨S1, .i32⟩
  | .hbm, ⟨56, _⟩ => ⟨S_, .i32⟩
  | .hbm, ⟨57, _⟩ => ⟨S256x512x1x1, .i32⟩
  | .hbm, ⟨58, _⟩ => ⟨S256x512x1x1, .i1⟩
  | .hbm, ⟨59, _⟩ => ⟨S1x1x1x1, .i32⟩
  | .hbm, ⟨60, _⟩ => ⟨S256x512x1x1, .i32⟩
  | .hbm, ⟨61, _⟩ => ⟨S256x512x1x1, .i1⟩
  | .hbm, ⟨62, _⟩ => ⟨S256x512x1x1, .i1⟩
  | .hbm, ⟨63, _⟩ => ⟨S_, .i1⟩
  | .hbm, ⟨64, _⟩ => ⟨S256x512x1, .i1⟩
  | .hbm, ⟨65, _⟩ => ⟨S1x8x256x512x1, .f32⟩
  | .hbm, ⟨66, _⟩ => ⟨S1x8x256x512x1, .i1⟩
  | .hbm, ⟨67, _⟩ => ⟨S_, .f32⟩
  | .hbm, ⟨68, _⟩ => ⟨S1x8x256x512x1, .f32⟩
  | .hbm, ⟨69, _⟩ => ⟨S1x8x256x512x1, .f32⟩
  | .hbm, ⟨70, _⟩ => ⟨S1x8x256x512, .f32⟩
  | .hbm, ⟨71, _⟩ => ⟨S_, .i32⟩
  | .hbm, ⟨72, _⟩ => ⟨S1x1x256x512x1, .i32⟩
  | .hbm, ⟨73, _⟩ => ⟨S1x1x256x512x1, .i1⟩
  | .hbm, ⟨74, _⟩ => ⟨S_, .i32⟩
  | .hbm, ⟨75, _⟩ => ⟨S1x1x256x512x1, .i32⟩
  | .hbm, ⟨76, _⟩ => ⟨S1x1x256x512x1, .i32⟩
  | .hbm, ⟨77, _⟩ => ⟨S1x1x256x512x1, .i32⟩
  | .hbm, ⟨78, _⟩ => ⟨S256x512x1x1, .i32⟩
  | .hbm, ⟨79, _⟩ => ⟨S1, .i32⟩
  | .hbm, ⟨80, _⟩ => ⟨S_, .i32⟩
  | .hbm, ⟨81, _⟩ => ⟨S256x512x1x1, .i32⟩
  | .hbm, ⟨82, _⟩ => ⟨S256x512x1x1, .i1⟩
  | .hbm, ⟨83, _⟩ => ⟨S1x1x1x1, .i32⟩
  | .hbm, ⟨84, _⟩ => ⟨S256x512x1x1, .i32⟩
  | .hbm, ⟨85, _⟩ => ⟨S256x512x1x1, .i1⟩
  | .hbm, ⟨86, _⟩ => ⟨S256x512x1x1, .i1⟩
  | .hbm, ⟨87, _⟩ => ⟨S_, .i1⟩
  | .hbm, ⟨88, _⟩ => ⟨S256x512x1, .i1⟩
  | .hbm, ⟨89, _⟩ => ⟨S1x8x256x512x1, .f32⟩
  | .hbm, ⟨90, _⟩ => ⟨S1x8x256x512x1, .i1⟩
  | .hbm, ⟨91, _⟩ => ⟨S_, .f32⟩
  | .hbm, ⟨92, _⟩ => ⟨S1x8x256x512x1, .f32⟩
  | .hbm, ⟨93, _⟩ => ⟨S1x8x256x512x1, .f32⟩
  | .hbm, ⟨94, _⟩ => ⟨S1x8x256x512, .f32⟩
  | .hbm, ⟨95, _⟩ => ⟨S_, .f32⟩
  | .hbm, ⟨96, _⟩ => ⟨S1x256x512, .f32⟩
  | .hbm, ⟨97, _⟩ => ⟨S1x256x512, .f32⟩
  | .hbm, ⟨98, _⟩ => ⟨S1x256x512, .f32⟩
  | .hbm, ⟨99, _⟩ => ⟨S1x1x256x512, .f32⟩
  | .hbm, ⟨100, _⟩ => ⟨S1x8x256x512, .f32⟩
  | .hbm, ⟨101, _⟩ => ⟨S1x8x256x512, .f32⟩
  | .hbm, ⟨102, _⟩ => ⟨S1x256x512, .f32⟩
  | .hbm, ⟨103, _⟩ => ⟨S1x1x256x512, .f32⟩
  | .hbm, ⟨104, _⟩ => ⟨S1x8x256x512, .f32⟩
  | .hbm, ⟨105, _⟩ => ⟨S1x8x256x512, .f32⟩
  | .hbm, ⟨106, _⟩ => ⟨S1x8x256x512, .f32⟩
  | _, _ => ⟨S1x8x131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_c_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_c_7 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v23 : Ref sig .tc := ⟨.hbm, 45, rfl⟩
abbrev main_v24 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v25 : Ref sig .tc := ⟨.hbm, 69, rfl⟩
abbrev main_v26 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v27 : Ref sig .tc := ⟨.hbm, 93, rfl⟩
abbrev main_v28 : Ref sig .tc := ⟨.hbm, 94, rfl⟩
abbrev main_cst_8 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩

abbrev nD : Nat := 1
abbrev τ : Topo := Topo.v7x

variable {F : FTy → Type} [FloatOps F]

class Facts₀ : Prop where
  shapeCasts_S1x8x131072x128_S1x8x256x512x128 : S1x8x131072x128.ShapeCasts S1x8x256x512x128
  shapeCasts_S1x256x512x1_S1x256x512 : S1x256x512x1.ShapeCasts S1x256x512
  bcast_S_S1x256x512 : S_.BroadcastsInDim S1x256x512 (![] : Fin 0 → Fin S1x256x512.rank)
  bcast_S1x256x512_S1x1x256x512x1_0_2_3 : S1x256x512.BroadcastsInDim S1x1x256x512x1 (![0, 2, 3] : Fin 3 → Fin S1x1x256x512x1.rank)
  bcast_S_S1x1x256x512x1 : S_.BroadcastsInDim S1x1x256x512x1 (![] : Fin 0 → Fin S1x1x256x512x1.rank)
  shapeCasts_S1x1x256x512x1_S256x512x1x1 : S1x1x256x512x1.ShapeCasts S256x512x1x1
  bcast_S_S256x512x1x1 : S_.BroadcastsInDim S256x512x1x1 (![] : Fin 0 → Fin S256x512x1x1.rank)
  bcast_S1_S1x1x1x1_3 : S1.BroadcastsInDim S1x1x1x1 (![3] : Fin 1 → Fin S1x1x1x1.rank)
  bcast_S1x1x1x1_S256x512x1x1_0_1_2_3 : S1x1x1x1.BroadcastsInDim S256x512x1x1 (![0, 1, 2, 3] : Fin 4 → Fin S256x512x1x1.rank)
  reducesTo_S256x512x1x1_S256x512x1_d3 : S256x512x1x1.ReducesTo [3] S256x512x1
  h_S_ : 0 < S_.numel
  bcast_S256x512x1_S1x8x256x512x1_2_3_4 : S256x512x1.BroadcastsInDim S1x8x256x512x1 (![2, 3, 4] : Fin 3 → Fin S1x8x256x512x1.rank)
  bcast_S_S1x8x256x512x1 : S_.BroadcastsInDim S1x8x256x512x1 (![] : Fin 0 → Fin S1x8x256x512x1.rank)
  shapeCasts_S1x8x256x512x1_S1x8x256x512 : S1x8x256x512x1.ShapeCasts S1x8x256x512
  bcast_S1x256x512_S1x1x256x512_0_2_3 : S1x256x512.BroadcastsInDim S1x1x256x512 (![0, 2, 3] : Fin 3 → Fin S1x1x256x512.rank)
  bcast_S1x1x256x512_S1x8x256x512_0_1_2_3 : S1x1x256x512.BroadcastsInDim S1x8x256x512 (![0, 1, 2, 3] : Fin 4 → Fin S1x8x256x512.rank)
  gather_S1x8x256x512x128_S256x512x1x1_S1x8x256x512x1_01_4_23_01_4_3_18111_wf : GatherDims.WF S1x8x256x512x128 S256x512x1x1 S1x8x256x512x1 [0, 1] [4] [2, 3] [4] [0, 1] 3 ![1, 8, 1, 1, 1]

variable [Facts₀]

def gather_S1x8x256x512x128_S256x512x1x1_S1x8x256x512x1_01_4_23_01_4_3_18111 : GatherDims S1x8x256x512x128 S256x512x1x1 S1x8x256x512x1 where
  offsetDims := [0, 1]
  collapsedSliceDims := [4]
  operandBatchingDims := [2, 3]
  startIndicesBatchingDims := [0, 1]
  startIndexMap := [4]
  indexVectorDim := 3
  sliceSizes := ![1, 8, 1, 1, 1]
  wf := gather_S1x8x256x512x128_S256x512x1x1_S1x8x256x512x1_01_4_23_01_4_3_18111_wf

class Facts : Prop extends Facts₀ where

variable [Facts]
-- ==== Proof.TentLaw.lean ====
import Idealize.ShloMosaic.PureOps.Ideal

/-!
# The tent law: linear interpolation along 128 lanes, as a two-tap gather

Interpolating a function `f` on the 128 lanes `0, …, 127` at a real coordinate `x` by the
tent weight `max 0 (1 - |d - x|)` at lane `d`, summed over all lanes, is the same as reading
two taps: with `n = ⌊x⌋` and `t = x - n`, the lanes `n` and `n + 1` carry the weights `1 - t`
and `t`, and every other integer is at distance at least `1` from `x`, so its weight is `0`.

The two-tap form computes the taps as signed 32-bit words: `n` converted with clamping into
`[-2³¹, 2³¹ - 1]`, its successor by a wrapping add, each tap masked by `[0 ≤ i < 128]` and
clipped into `[0, 127]` before the read. The law holds for every real `x` and every
`f : Fin 128 → EReal`, with no finiteness assumption on `f`: a masked tap has the real weight
`0`, and `a * 0 = 0` in the extended reals. By cases on `n`:

* `n ≤ -2` or `128 ≤ n`: both masks are `0` and every lane's weight is `0` (this includes the
  clamped extremes; at the top one the successor wraps to `-2³¹`, and is masked);
* `n = -1`: only the upper tap, lane `0`, weight `t`;
* `0 ≤ n ≤ 126`: both taps;
* `n = 127`: only the lower tap, lane `127`, weight `1 - t`.
-/

noncomputable section

namespace Cert.Tent

open Idealize.ShloMosaic

/-! ## The two taps, their masks and their lanes, as 32-bit words -/

/-- The lower tap: the floor of the coordinate, converted to a signed 32-bit word (the
    conversion clamps into `[-2³¹, 2³¹ - 1]`). -/
def tap0 (X : EReal) : BitVec 32 := Ideal.fptosi 32 (Ideal.liftRound Int.floor X)

/-- The upper tap: the lower tap plus one, wrapping at 32 bits. -/
def tap1 (X : EReal) : BitVec 32 := IntOp.addi (tap0 X) 1#32

/-- The mask of a tap: the one-bit word `[0 ≤ i ∧ i < 128]`, signed. -/
def inRange (i : BitVec 32) : BitVec 1 := IntOp.andi (IntOp.cmpi .sge i 0#32) (IntOp.cmpi .slt i 128#32)

/-- A tap clipped into `[0, 127]` by a signed maximum and minimum. -/
def clip (i : BitVec 32) : BitVec 32 := IntOp.minsi 127#32 (IntOp.maxsi 0#32 i)

/-- An index with negative values counted from the end of the 128 lanes. -/
def wrap (i : BitVec 32) : BitVec 32 := Scalar.select (IntOp.cmpi .slt i 0#32) (IntOp.addi i 128#32) i

/-- The lane a tap reads. -/
def lane (i : BitVec 32) : Nat := min (wrap (clip i)).toInt.toNat 127

theorem toInt_zero32 : (0#32).toInt = 0 := by decide
theorem toInt_one32 : (1#32).toInt = 1 := by decide
theorem toInt_c127 : (127#32).toInt = 127 := by decide
theorem toInt_c128 : (128#32).toInt = 128 := by decide

/-- The mask, through the signed value of the word. -/
theorem inRange_eq (i : BitVec 32) :
    inRange i = BitVec.ofBool (decide (0 ≤ i.toInt ∧ i.toInt < 128)) := by
  unfold inRange IntOp.andi IntOp.cmpi
  simp only [BitVec.ofBool_and_ofBool, BitVec.sle_eq_decide, BitVec.slt_eq_decide,
    toInt_zero32, toInt_c128, Bool.decide_and]

/-- The mask as a number: `1` when the signed value is in `[0, 128)`, else `0`. -/
theorem inRange_toNat (i : BitVec 32) :
    (inRange i).toNat = if 0 ≤ i.toInt ∧ i.toInt < 128 then 1 else 0 := by
  rw [inRange_eq]
  split_ifs with h <;> simp [h]

/-- The signed value of the clipped word is the signed value clipped into `[0, 127]`. -/
theorem clip_toInt (i : BitVec 32) : (clip i).toInt = max 0 (min 127 i.toInt) := by
  unfold clip IntOp.minsi IntOp.maxsi
  simp only [BitVec.slt_eq_decide, toInt_zero32, toInt_c127, decide_eq_true_eq]
  by_cases h : i.toInt < 0
  · rw [if_pos h]
    simp only [toInt_zero32]
    rw [if_neg (by omega)]
    simp only [toInt_zero32]
    omega
  · rw [if_neg h]
    by_cases h2 : 127 < i.toInt
    · rw [if_pos h2]; simp only [toInt_c127]; omega
    · rw [if_neg h2]; omega

/-- A word that is not negative is left alone. -/
theorem wrap_of_nonneg (j : BitVec 32) (h : 0 ≤ j.toInt) : wrap j = j := by
  unfold wrap Scalar.select IntOp.cmpi
  simp only [BitVec.slt_eq_decide, toInt_zero32]
  have : ¬ j.toInt < 0 := by omega
  simp [this]

/-- A clipped word is not negative, so it is left alone. -/
theorem wrap_clip_toInt (i : BitVec 32) : (wrap (clip i)).toInt = max 0 (min 127 i.toInt) := by
  rw [wrap_of_nonneg _ (by rw [clip_toInt]; omega), clip_toInt]

/-- The lane a tap reads is its signed value clipped into `[0, 127]`. -/
theorem lane_eq (i : BitVec 32) : lane i = (max 0 (min 127 i.toInt)).toNat := by
  unfold lane
  rw [wrap_clip_toInt]
  omega

/-- The lane a tap reads is one of the 128 lanes. -/
theorem lane_lt (i : BitVec 32) : lane i < 128 := by
  unfold lane; omega

/-- The index read is within `[0, 127]`. -/
theorem wrap_clip_inb (i : BitVec 32) : IntOp.andi (IntOp.cmpi .sge (wrap (clip i)) 0#32) (IntOp.cmpi .sle (wrap (clip i)) 127#32) = 1#1 := by
  unfold IntOp.andi IntOp.cmpi
  simp only [BitVec.ofBool_and_ofBool, BitVec.sle_eq_decide, toInt_zero32, toInt_c127,
    wrap_clip_toInt]
  have h1 : (0 : ℤ) ≤ max 0 (min 127 i.toInt) := by omega
  have h2 : max 0 (min 127 i.toInt) ≤ (127 : ℤ) := by omega
  simp [h1, h2]

/-- An integer clamped into the signed 32-bit range is the signed value of its word. -/
theorem toInt_clamp (n : ℤ) :
    (BitVec.ofInt 32 (max (-2147483648) (min 2147483647 n))).toInt
      = max (-2147483648) (min 2147483647 n) := by
  rw [BitVec.toInt_ofInt, Int.bmod_def]
  omega

/-- The wrapping successor of a clamped integer: the successor, except that the top of the
    range goes to the bottom. -/
theorem toInt_clamp_succ (n : ℤ) :
    (IntOp.addi (BitVec.ofInt 32 (max (-2147483648) (min 2147483647 n))) 1#32).toInt
      = if n < 2147483647 then max (-2147483648) n + 1 else -2147483648 := by
  unfold IntOp.addi
  rw [BitVec.toInt_add, toInt_clamp, toInt_one32, Int.bmod_def]
  split_ifs <;> omega

/-- The lower tap at a real coordinate: the floor, clamped to the signed 32-bit range. -/
theorem tap0_coe (x : ℝ) :
    tap0 (x : EReal) = BitVec.ofInt 32 (max (-2147483648) (min 2147483647 ⌊x⌋)) := by
  unfold tap0 Ideal.fptosi
  rw [Ideal.liftRound_coe, Ideal.toIntClamped_coe]
  simp only [Int.floor_intCast, Int.ceil_intCast, ite_self]
  norm_num

theorem tap0_toInt (x : ℝ) :
    (tap0 (x : EReal)).toInt = max (-2147483648) (min 2147483647 ⌊x⌋) := by
  rw [tap0_coe, toInt_clamp]

theorem tap1_toInt (x : ℝ) :
    (tap1 (x : EReal)).toInt
      = if ⌊x⌋ < 2147483647 then max (-2147483648) ⌊x⌋ + 1 else -2147483648 := by
  unfold tap1
  rw [tap0_coe, toInt_clamp_succ]

/-- The lower tap's mask: `1` exactly when the floor is a lane. -/
theorem mask0 (x : ℝ) :
    (inRange (tap0 (x : EReal))).toNat = if 0 ≤ ⌊x⌋ ∧ ⌊x⌋ < 128 then 1 else 0 := by
  rw [inRange_toNat, tap0_toInt]
  apply if_congr _ rfl rfl
  omega

/-- The upper tap's mask: `1` exactly when the floor's successor is a lane; at the top of
    the clamped range the successor wraps to the most negative word, and is masked. -/
theorem mask1 (x : ℝ) :
    (inRange (tap1 (x : EReal))).toNat = if 0 ≤ ⌊x⌋ + 1 ∧ ⌊x⌋ + 1 < 128 then 1 else 0 := by
  rw [inRange_toNat, tap1_toInt]
  apply if_congr _ rfl rfl
  split_ifs <;> omega

/-- When the floor is a lane, the lower tap reads it. -/
theorem lane0 (x : ℝ) (h : 0 ≤ ⌊x⌋ ∧ ⌊x⌋ < 128) :
    ((lane (tap0 (x : EReal)) : ℕ) : ℤ) = ⌊x⌋ := by
  rw [lane_eq, tap0_toInt]
  omega

/-- When the floor's successor is a lane, the upper tap reads it. -/
theorem lane1 (x : ℝ) (h : 0 ≤ ⌊x⌋ + 1 ∧ ⌊x⌋ + 1 < 128) :
    ((lane (tap1 (x : EReal)) : ℕ) : ℤ) = ⌊x⌋ + 1 := by
  rw [lane_eq, tap1_toInt]
  split_ifs <;> omega

/-! ## The tent weight at a real coordinate -/

/-- The tent weight `max 0 (1 - |d - X|)` of lane `d`, the absolute value written as the
    larger of the difference and its negation. -/
def weight (d : Fin 128) (X : EReal) : EReal := max 0 (1 - max ((((d.val : ℝ)) : EReal) - X) (-((((d.val : ℝ)) : EReal) - X)))

/-- The embedding of the reals in the extended reals commutes with `max`. -/
theorem coe_max' (a b : ℝ) : ((max a b : ℝ) : EReal) = max (a : EReal) (b : EReal) :=
  EReal.coe_strictMono.monotone.map_max

/-- The tent `max 0 (1 - |d - x|)` at an integer `d`: it is `1 - t` at `d = ⌊x⌋`, `t` at
    `d = ⌊x⌋ + 1` (with `t = x - ⌊x⌋`), and `0` at every other integer, where `|d - x| ≥ 1`. -/
theorem real_tent (d : ℕ) (x : ℝ) :
    max 0 (1 - max ((d : ℝ) - x) (-((d : ℝ) - x)))
      = if (d : ℤ) = ⌊x⌋ then 1 - (x - (⌊x⌋ : ℝ))
        else if (d : ℤ) = ⌊x⌋ + 1 then x - (⌊x⌋ : ℝ) else 0 := by
  have h1 := Int.floor_le x
  have h2 := Int.lt_floor_add_one x
  split_ifs with c1 c2
  · have e : (d : ℝ) = (⌊x⌋ : ℝ) := by exact_mod_cast congrArg (Int.cast : ℤ → ℝ) c1
    have i1 : max ((⌊x⌋ : ℝ) - x) (-((⌊x⌋ : ℝ) - x)) = x - (⌊x⌋ : ℝ) := by
      rw [max_eq_right (by linarith)]; ring
    rw [e, i1]
    exact max_eq_right (by linarith)
  · have e : (d : ℝ) = (⌊x⌋ : ℝ) + 1 := by exact_mod_cast congrArg (Int.cast : ℤ → ℝ) c2
    have i2 : max ((⌊x⌋ : ℝ) + 1 - x) (-((⌊x⌋ : ℝ) + 1 - x)) = (⌊x⌋ : ℝ) + 1 - x :=
      max_eq_left (by linarith)
    rw [e, i2, max_eq_right (by linarith)]
    ring
  · have c3 : (d : ℤ) ≤ ⌊x⌋ - 1 ∨ ⌊x⌋ + 2 ≤ (d : ℤ) := by omega
    rcases c3 with c3 | c3
    · have e : (d : ℝ) ≤ (⌊x⌋ : ℝ) - 1 := by exact_mod_cast (Int.cast_le (R := ℝ)).mpr c3
      apply max_eq_left
      have : (1 : ℝ) ≤ max ((d : ℝ) - x) (-((d : ℝ) - x)) := le_max_of_le_right (by linarith)
      linarith
    · have e : (⌊x⌋ : ℝ) + 2 ≤ (d : ℝ) := by exact_mod_cast (Int.cast_le (R := ℝ)).mpr c3
      apply max_eq_left
      have : (1 : ℝ) ≤ max ((d : ℝ) - x) (-((d : ℝ) - x)) := le_max_of_le_left (by linarith)
      linarith

/-- The tent weight of lane `d` at a real coordinate, as a real number. -/
theorem weight_coe (d : Fin 128) (x : ℝ) :
    weight d (x : EReal)
      = ((if (d.val : ℤ) = ⌊x⌋ then 1 - (x - (⌊x⌋ : ℝ))
          else if (d.val : ℤ) = ⌊x⌋ + 1 then x - (⌊x⌋ : ℝ) else 0 : ℝ) : EReal) := by
  rw [← real_tent]
  unfold weight
  simp only [coe_max', EReal.coe_sub, EReal.coe_neg, EReal.coe_one, EReal.coe_zero]

/-! ## The sum over the lanes -/

/-- A sum over the lanes of terms that vanish off one integer position `m`: it is the single
    term at `m` when `m` is a lane, and `0` otherwise (a real `0` weight kills its term,
    whatever the value it multiplies). -/
theorem sum_single (f : Fin 128 → EReal) (m : ℤ) (a : ℝ) (k : Fin 128)
    (hk : 0 ≤ m ∧ m < 128 → (k.val : ℤ) = m) :
    ∑ d : Fin 128, f d * (((if (d.val : ℤ) = m then a else 0 : ℝ)) : EReal)
      = f k * (((if 0 ≤ m ∧ m < 128 then a else 0 : ℝ)) : EReal) := by
  by_cases h : 0 ≤ m ∧ m < 128
  · rw [if_pos h, Finset.sum_eq_single k]
    · rw [if_pos (hk h)]
    · intro d _ hd
      have hne : (d.val : ℤ) ≠ m := by
        intro e
        apply hd
        apply Fin.ext
        have := hk h
        omega
      rw [if_neg hne, EReal.coe_zero, mul_zero]
    · intro hnot
      exact absurd (Finset.mem_univ k) hnot
  · rw [if_neg h, EReal.coe_zero, mul_zero]
    apply Finset.sum_eq_zero
    intro d _
    have hne : (d.val : ℤ) ≠ m := by
      intro e
      have := d.isLt
      omega
    rw [if_neg hne, EReal.coe_zero, mul_zero]

/-- A weight that is one of two reals on disjoint conditions, and `0` otherwise, splits
    into two single-condition weights. (Case by case, since multiplication does not
    distribute over addition in the extended reals.) -/
theorem split_two (y : EReal) (p q : Prop) [Decidable p] [Decidable q] (hpq : ¬ (p ∧ q))
    (a b : ℝ) :
    y * (((if p then a else if q then b else 0 : ℝ)) : EReal)
      = y * (((if p then a else 0 : ℝ)) : EReal) + y * (((if q then b else 0 : ℝ)) : EReal) := by
  by_cases hp : p
  · have hq : ¬ q := fun hq => hpq ⟨hp, hq⟩
    rw [if_pos hp, if_pos hp, if_neg hq, EReal.coe_zero, mul_zero, add_zero]
  · rw [if_neg hp, if_neg hp, EReal.coe_zero, mul_zero, zero_add]

/-- A real weight times a 0/1 mask. -/
theorem masked (a : ℝ) (p : Prop) [Decidable p] :
    (a : EReal) * ((((if p then 1 else 0 : ℕ) : ℝ)) : EReal)
      = (((if p then a else 0 : ℝ)) : EReal) := by
  split_ifs <;> simp

/-- **The tent law.** The tent-weighted sum over all 128 lanes at a real coordinate `x` is the
    masked two-tap interpolation: lane `⌊x⌋` with weight `1 - t` and lane `⌊x⌋ + 1` with weight
    `t = x - ⌊x⌋`, each tap dropped when it is not a lane. -/
theorem tent (x : ℝ) (f : Fin 128 → EReal) :
    (0 : EReal) + ∑ d : Fin 128, f d * weight d (x : EReal)
      = f ⟨lane (tap0 (x : EReal)), lane_lt _⟩ * ((1 - ((x : EReal) - Ideal.liftRound Int.floor (x : EReal))) * (((inRange (tap0 (x : EReal))).toNat : ℝ) : EReal))
        + f ⟨lane (tap1 (x : EReal)), lane_lt _⟩ * (((x : EReal) - Ideal.liftRound Int.floor (x : EReal)) * (((inRange (tap1 (x : EReal))).toNat : ℝ) : EReal)) := by
  have ea : (1 : EReal) - ((x : EReal) - ((⌊x⌋ : ℝ) : EReal))
      = ((1 - (x - (⌊x⌋ : ℝ)) : ℝ) : EReal) := by
    rw [EReal.coe_sub, EReal.coe_sub, EReal.coe_one]
  have eb : (x : EReal) - ((⌊x⌋ : ℝ) : EReal) = ((x - (⌊x⌋ : ℝ) : ℝ) : EReal) := by
    rw [EReal.coe_sub]
  rw [mask0, mask1, Ideal.liftRound_coe, zero_add, ea, eb, masked, masked,
    ← sum_single f ⌊x⌋ _ ⟨lane (tap0 (x : EReal)), lane_lt _⟩ (lane0 x),
    ← sum_single f (⌊x⌋ + 1) _ ⟨lane (tap1 (x : EReal)), lane_lt _⟩ (lane1 x),
    ← Finset.sum_add_distrib]
  apply Finset.sum_congr rfl
  intro d _
  rw [weight_coe, split_two]
  omega

end Cert.Tent
-- ==== Proof.LaneSum.lean ====
/-
  The kernel body's stored value, read at one element.

  The body loads a block of the cost volume, [1, 8, 2048, 128] (channel c, pixel q, lane d), and a column of sample
  coordinates, [2048, 1] (pixel q). What it stores at (c, q) is the sum over the 128 lanes d of the cost at (c, q, d)
  times the tent weight max(0, 1 - |d - x q|): the lane index d comes from an integer iota along the lane axis made a
  float, the coordinate x q is the column broadcast along the lanes, and the weight row is broadcast over the channels.
-/
import proofs.«129013_j91225105367329_2_alg».proof.Proof.Gen.KernelIdeal.Skeleton
import proofs.«129013_j91225105367329_2_alg».proof.Proof.TentLaw
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The f32 word of 1.0 is the extended real 1. -/
theorem one_f32 : Ideal.ofBits .f32 0x3F800000#32 = (1 : EReal) := by
  simp [Ideal.ofBits, Ideal.ieee, -EReal.coe_mul]
  norm_num

/-- A lane number below 128, as a 32-bit word read signed, is the lane number. -/
theorem lane_word (d : Fin 128) : (BitVec.ofNat 32 d.val).toInt = (d.val : Int) := by
  revert d; decide

theorem pay_apply (x0 : Vec Ideal S1x8x2048x128 .f32) (x1 : Vec Ideal S2048x1 .f32) (p : Fin 8) (q : Fin 2048) :
    k0_pay1 (F := Ideal) x0 x1 (ix2 p q) = ∑ d : Fin 128, x0 (ix4 0 p q d) * Cert.Tent.weight d (x1 (ix2 q 0)) := by
  unfold k0_pay1
  refine (Ideal.multiReduction_add_single _ _ reduces_S8x2048x128_S8x2048 _ _ (ix2 p q)).trans ?_
  refine Finset.sum_congr rfl fun (d : Fin 128) _ => ?_
  have hj : reduces_S8x2048x128_S8x2048.lift (ix2 p q) d = ix3 p q d := by
    funext a; apply Fin.ext
    match a with
    | ⟨0, _⟩ => rfl
    | ⟨1, _⟩ => rfl
    | ⟨2, _⟩ => rfl
  rw [hj, mulf_apply]
  congr 1
  · exact shapeCast_apply x0 shapeCasts_S1x8x2048x128_S8x2048x128 (ix3 p q d) (ix4 0 p q d)
      (by rewrite [Shape.rowMajor_val_four, Shape.rowMajor_val_three]
          show ((0 * 8 + p.val) * 2048 + q.val) * 128 + d.val = (p.val * 2048 + q.val) * 128 + d.val
          omega)
  · refine (broadcastTo_apply _ broadcasts_S1x2048x128_S8x2048x128 (ix3 p q d) (ix3 (0 : Fin 1) q d) (fun a => ?_)).trans ?_
    · match a with
      | ⟨0, _⟩ => show 0 = if (1 : Nat) = 1 then 0 else _; rw [if_pos rfl]
      | ⟨1, _⟩ => show q.val = if (2048 : Nat) = 1 then 0 else q.val; rw [if_neg (by decide)]
      | ⟨2, _⟩ => show d.val = if (128 : Nat) = 1 then 0 else d.val; rw [if_neg (by decide)]
    refine (shapeCast_apply _ shapeCasts_S2048x128_S1x2048x128 (ix3 (0 : Fin 1) q d) (ix2 q d)
      (by rewrite [Shape.rowMajor_val_two, Shape.rowMajor_val_three]
          show q.val * 128 + d.val = (0 * 2048 + q.val) * 128 + d.val
          omega)).trans ?_
    have hiota : iota Kind.tc S2048x128 32 [1] iota_S2048x128_d1_w32 (ix2 q d) = BitVec.ofNat 32 d.val :=
      iota_single_apply .tc S2048x128 32 1 iota_S2048x128_d1_w32 (ix2 q d)
    have hx : broadcastTo S2048x128 (shapeCast S2048x1 x1 shapeCasts_S2048x1_S2048x1) broadcasts_S2048x1_S2048x128 (ix2 q d)
        = x1 (ix2 q 0) := by
      refine (broadcastTo_apply _ broadcasts_S2048x1_S2048x128 (ix2 q d) (ix2 q (0 : Fin 1)) (fun a => ?_)).trans ?_
      · match a with
        | ⟨0, _⟩ => show q.val = if (2048 : Nat) = 1 then 0 else q.val; rw [if_neg (by decide)]
        | ⟨1, _⟩ => show 0 = if (1 : Nat) = 1 then 0 else _; rw [if_pos rfl]
      · rw [shapeCast_self]
    show max (Ideal.ofBits .f32 0x00000000#32)
        (Ideal.ofBits .f32 0x3F800000#32 - max
          ((((iota Kind.tc S2048x128 32 [1] iota_S2048x128_d1_w32 (ix2 q d)).toInt : ℝ) : EReal)
            - broadcastTo S2048x128 (shapeCast S2048x1 x1 shapeCasts_S2048x1_S2048x1) broadcasts_S2048x1_S2048x128 (ix2 q d))
          (-((((iota Kind.tc S2048x128 32 [1] iota_S2048x128_d1_w32 (ix2 q d)).toInt : ℝ) : EReal)
            - broadcastTo S2048x128 (shapeCast S2048x1 x1 shapeCasts_S2048x1_S2048x1) broadcasts_S2048x1_S2048x128 (ix2 q d))))
      = Cert.Tent.weight d (x1 (ix2 q 0))
    rw [hiota, hx, lane_word d, Int.cast_natCast, Ideal.ofBits_zero_f32, one_f32]
    rfl

end Cert.KernelIdeal.Body

end
-- ==== Proof.KernelRun.lean ====
/-
  What the idealized kernel's program leaves in its result, as one function of its arguments.

  Before the region the host makes the column of sample coordinates, [131072, 1]: the flow map, [1, 256, 512, 1], times the one
  constant the program holds, pixel by pixel in row-major order. The region's grid has 64 points; point t handles pixels
  2048 t … 2048 t + 2047: it stages that slab of the cost volume (all channels, all lanes) and of the column, and writes back
  the [8, 2048] block of the [8, 131072] output whose entry (c, q) is the lane sum of the body (LaneSum.lean). So the output
  array is one function of the cost volume and the column, the blocks cover it, and after the region the host only views it as
  [1, 8, 256, 512].
-/
import proofs.«129013_j91225105367329_2_alg».proof.Proof.Gen.KernelIdeal.Frame
import proofs.«129013_j91225105367329_2_alg».proof.Proof.LaneSum
import Idealize.ShloMosaic.Lib.Pipeline.Value
import Idealize.ShloMosaic.Lib.StableHlo.Run
import Idealize.ShloMosaic.Lib.ValueIdx

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The column of sample coordinates the host computes from the flow map: flow times the program's constant, as [131072, 1]. -/
def coords (flow : S1x256x512x1.Idx → EReal) : S131072x1.Idx → EReal :=
  shapeCast S131072x1
    (mulf (F := Ideal) (φ := .f32) (shapeCast S1x256x512 flow shapeCasts_S1x256x512x1_S1x256x512)
      (broadcastInDim S1x256x512 ![] bcast_S_S1x256x512 (constant (F := Ideal) S_ .f32 0x3F7E0000#32)))
    shapeCasts_S1x256x512_S131072x1

/-- The region finds that column in its second window's array. -/
theorem V_main_v3 (c : Dev nD) :
    (V m c main_v3 : S131072x1.Idx → EReal) = coords (m ((c : Thread nD τ).loc main_arg1)) := by
  show StableHlo.after hostOps0 (fun b => m (c, b)) (Proc.devRef .tc main_v3) = _
  after_results
  rfl

/-- The output array [8, 131072] as one function of the cost volume and the column: at (c, r) the sum over the lanes of the cost
    at (c, r, d) times the tent weight of lane d at the coordinate of pixel r. -/
def blend (cv : S1x8x131072x128.Idx → EReal) (xs : S131072x1.Idx → EReal) : S8x131072.Idx → EReal :=
  fun i => ∑ d : Fin 128, cv (ix4 (0 : Fin 1) (⟨(i 0).val, idx2_lt0 i⟩ : Fin 8) (⟨(i 1).val, idx2_lt1 i⟩ : Fin 131072) d)
    * Cert.Tent.weight d (xs (ix2 (⟨(i 1).val, idx2_lt1 i⟩ : Fin 131072) (0 : Fin 1)))

/-- A block's value is the block of `blend`, once its loaded blocks are the arrays read at the block's place. -/
theorem block_value (x0 : Vec Ideal S1x8x2048x128 .f32) (x1 : Vec Ideal S2048x1 .f32)
    (cv : S1x8x131072x128.Idx → EReal) (xs : S131072x1.Idx → EReal) (p : Fin 8) (q : Fin 2048) (i : S8x131072.Idx)
    (h0 : ∀ d : Fin 128, x0 (ix4 (0 : Fin 1) p q d)
      = cv (ix4 (0 : Fin 1) (⟨(i 0).val, idx2_lt0 i⟩ : Fin 8) (⟨(i 1).val, idx2_lt1 i⟩ : Fin 131072) d))
    (h1 : x1 (ix2 q (0 : Fin 1)) = xs (ix2 (⟨(i 1).val, idx2_lt1 i⟩ : Fin 131072) (0 : Fin 1))) :
    k0_pay1 (F := Ideal) x0 x1 (ix2 p q) = blend cv xs i := by
  rw [Cert.KernelIdeal.Body.pay_apply]
  unfold blend
  refine Finset.sum_congr rfl fun d _ => ?_
  rw [h0 d, h1]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The printed index maps, decided over the 64 points: the cost volume's and the column's blocks move with the output's along the
    pixels and sit at block 0 on every other axis. -/
theorem idx_facts : ∀ t : Fin cfg0.N,
    win0_0.index t (0 : Fin 4) = 0 ∧ win0_0.index t (1 : Fin 4) = 0
    ∧ win0_0.index t (2 : Fin 4) = win0_2.index t (1 : Fin 2) ∧ win0_0.index t (3 : Fin 4) = 0
    ∧ win0_1.index t (0 : Fin 2) = win0_2.index t (1 : Fin 2) ∧ win0_1.index t (1 : Fin 2) = 0
    ∧ win0_2.index t (0 : Fin 2) = 0 ∧ win0_2.index t (1 : Fin 2) ≤ 63 :=
  (by decide +kernel : ∀ t : Fin grid0.N, _)

/-- Every block of the output is some point's. -/
theorem idx_onto : ∀ b : Fin 64, ∃ t : Fin cfg0.N, win0_2.index t = ![0, b.val] :=
  (by decide +kernel : ∀ b : Fin 64, ∃ t : Fin grid0.N, win0_2.index t = ![0, b.val])

/-- What point `t` writes back is block `t` of `blend` of the arrays as the region finds them. -/
theorem flushed_eq (c : Dev nD) (t : Fin cfg0.N) :
    (dats m 0 c).flushed 2 t
      = ((cfg0.win 2).blk t).view.read (Elt Ideal) (blend (V m c main_arg0) (V m c main_v3)) := by
  show (cfg0.win 2).cut (grid0.coords t) ((dats m 0 c).after 2 t) = _
  rw [after0_2]
  unfold out0_2
  rw [View.canon_unit_zero hz2]
  simp only [View.ld_unit_zero (S := S1x8x2048x128) hz4, View.ld_unit_zero (S := S2048x1) hz2]
  obtain ⟨e0, e1, e2, e3, e4, e5, e6, e7⟩ := idx_facts t
  funext j
  obtain ⟨p, q, rfl⟩ : ∃ (p : Fin 8) (q : Fin 2048), j = ix2 p q := ⟨j 0, j 1, eq_ix2 j⟩
  show k0_pay1 (F := Ideal) (iblk m c 0 t) (iblk m c 1 t) (ix2 p q)
      = blend (V m c main_arg0) (V m c main_v3) (((cfg0.win 2).blk t).view.emb (ix2 p q))
  refine block_value (iblk m c 0 t) (iblk m c 1 t) (V m c main_arg0) (V m c main_v3) p q _ (fun d => ?_) ?_
  · show V m c main_arg0 (((cfg0.win 0).blk t).view.emb (ix4 (0 : Fin 1) p q d)) = V m c main_arg0 _
    refine congrArg _ ?_
    funext a; apply Fin.ext
    match a with
    | ⟨0, _⟩ => show win0_0.index t (0 : Fin 4) * 1 + 1 * 0 = 0; omega
    | ⟨1, _⟩ => show win0_0.index t (1 : Fin 4) * 8 + 1 * p.val = win0_2.index t (0 : Fin 2) * 8 + 1 * p.val; omega
    | ⟨2, _⟩ => show win0_0.index t (2 : Fin 4) * 2048 + 1 * q.val = win0_2.index t (1 : Fin 2) * 2048 + 1 * q.val; omega
    | ⟨3, _⟩ => show win0_0.index t (3 : Fin 4) * 128 + 1 * d.val = d.val; omega
  · show V m c main_v3 (((cfg0.win 1).blk t).view.emb (ix2 q (0 : Fin 1))) = V m c main_v3 _
    refine congrArg _ ?_
    funext a; apply Fin.ext
    match a with
    | ⟨0, _⟩ => show win0_1.index t (0 : Fin 2) * 2048 + 1 * q.val = win0_2.index t (1 : Fin 2) * 2048 + 1 * q.val; omega
    | ⟨1, _⟩ => show win0_1.index t (1 : Fin 2) * 1 + 1 * 0 = 0; omega

/-- An index of the output array is in point `t`'s block iff each coordinate is in the block's range on its axis. -/
theorem mem_blk (t : Fin cfg0.N) (i : S8x131072.Idx) :
    i ∈ ((cfg0.win 2).blk t).view.set ↔ ∀ a : Fin 2, win0_2.index t a * S8x2048.size a ≤ (i a).val
      ∧ (i a).val < win0_2.index t a * S8x2048.size a + S8x2048.size a := by
  show i ∈ ((View.whole main_v4).slice (win0_2.rect t)).set ↔ _
  rw [View.set_slice_whole, Rect.mem_set_unit]
  exact Iff.rfl

/-- The blocks cover the output: pixel r is in the block of point r / 2048. -/
theorem cover (i : S8x131072.Idx) :
    ∃ t : Fin cfg0.N, (cfg0.win 2).flush t = true ∧ i ∈ ((cfg0.win 2).blk t).view.set := by
  have hi0 : (i 0).val < 8 := (i 0).isLt
  have hi1 : (i 1).val < 131072 := (i 1).isLt
  obtain ⟨t, ht⟩ := idx_onto ⟨(i 1).val / 2048, by omega⟩
  have q0 : win0_2.index t (0 : Fin 2) = 0 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ =>
    show win0_2.index t (1 : Fin 2) * 2048 ≤ (i 1).val ∧ (i 1).val < win0_2.index t (1 : Fin 2) * 2048 + 2048
    omega

/-- The output array after the region is `blend` of the cost volume and the column. -/
theorem final (c : Dev nD) : (dats m 0 c).arrAt 2 cfg0.N = blend (V m c main_arg0) (V m c main_v3) :=
  (dats m 0 c).arrAt_eq_of_cover 2 _ (fun t _ => flushed_eq m c t) cover

/-- The program's result: `blend` of the cost volume and the coordinates of the flow map, viewed [1, 8, 256, 512]. -/
def result (cv : S1x8x131072x128.Idx → EReal) (flow : S1x256x512x1.Idx → EReal) : S1x8x256x512.Idx → EReal :=
  shapeCast S1x8x256x512 (blend cv (coords flow)) shapeCasts_S8x131072_S1x8x256x512

/-- The host line after the region views the output array as the result. -/
theorem tail_eq (c : Dev nD) :
    Pipeline.afterTail₀ cfgs (dats m) 0 (V0 m) [hostOps1] c main_v5
      = result (m ((c : Thread nD τ).loc main_arg0)) (m ((c : Thread nD τ).loc main_arg1)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = blend (V m c main_arg0) (V m c main_v3) :=
    (Pipeline.withArrays_arr spec0 launch0.win.arr_inj c _ _ 2).trans (final m c)
  rw [hw, V_main_arg0, V_main_v3]
  rfl

/-- Every weakly fair execution of the idealized kernel's program ends with its result at `result` of the argument arrays, and the
    arguments as they were. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v5 (Pipeline.mem_restRefs_of main_v5 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.RunValue

end
-- ==== Proof.FiniteFlow.lean ====
import proofs.«129013_j91225105367329_2_alg».proof.Pre_finite_inputs
import proofs.«129013_j91225105367329_2_alg».proof.Proof.Gen.Pre_finite_inputs
import Idealize.ShloMosaic.Lib.ReduceAll
import Idealize.ShloMosaic.Lib.ValueIdx
import Idealize.ShloMosaic.PureOps.Ideal

/-!
# The precondition decoded: finite inputs are real numbers

The precondition states that every entry of both float inputs has absolute value below
`+∞`: for each input, the entrywise comparison `|x| < +∞`, reduced by `and` over all axes,
and the two results joined by `and`, is the one-bit word `1`. With floats read as extended
reals, the absolute value is `max x (-x)`, and `max x (-x) < ⊤` rules out both `x = ⊤` and
`x = ⊥`; so every entry is a real number. Only the second input is needed.
-/

noncomputable section

namespace Cert.FiniteFlow

open Idealize.ShloMosaic Idealize.ShloMosaic.ValueIdx

/-- The shape of rank `0` has one index. -/
instance : Subsingleton Cert.Pre_finite_inputs.S_.Idx := ⟨fun a b => funext fun d => d.elim0⟩

/-- The binary32 pattern `0x7F800000` (sign `0`, exponent all ones, fraction `0`) is `+∞`. -/
theorem inf_bits : Ideal.ofBits .f32 0x7F800000#32 = (⊤ : EReal) := by
  simp [Ideal.ofBits, Ideal.ieee]

/-- A strict comparison that came out `1` holds. -/
theorem lt_of_cmp_olt (a b : EReal) (h : Ideal.cmp .olt a b = 1#1) : a < b := by
  by_contra hn
  have e : Ideal.cmp .olt a b = 0#1 := by simp [Ideal.cmp, hn]
  rw [e] at h
  exact absurd h (by decide)

/-- An extended real whose absolute value `max x (-x)` is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition, every entry of the second input is a real number. -/
theorem flow_real [hP : Cert.Pre_finite_inputs.Facts]
    (x0 : FVec Ideal Cert.Pre_finite_inputs.S1x8x131072x128 .f32)
    (x1 : FVec Ideal Cert.Pre_finite_inputs.S1x256x512x1 .f32)
    (h : Cert.Pre_finite_inputs.fn (F := Ideal) x0 x1 = fun _ => 1#1) :
    ∀ i, ∃ r : ℝ, x1 i = (r : EReal) := by
  intro i
  have e := congrFun h ix0
  dsimp only [Cert.Pre_finite_inputs.fn] at e
  obtain ⟨-, e2⟩ := IntOp.andi_eq_one.1 e
  have e3 := Host.reduce_andi_all _ _ _ _ _ e2 i
  have e4 : Ideal.cmp .olt (max (x1 i) (-(x1 i))) (Ideal.ofBits .f32 0x7F800000#32) = 1#1 := e3
  rw [inf_bits] at e4
  exact real_of_abs_lt_top _ (lt_of_cmp_olt _ _ e4)

end Cert.FiniteFlow
-- ==== Proof.GatherRead.lean ====
/-
  The reference's gather, read at one element.

  The reference reads the cost volume, viewed [1, 8, 256, 512, 128] (channel c, pixel row h, pixel column w, lane), at ONE lane per
  pixel: the lane is the signed word the index array [256, 512, 1, 1] holds at (h, w), clamped into the 128 lanes (a gather
  clamps its start indices so that the slice fits); channel and pixel are carried through (the channel as an offset axis, the
  pixel's two axes as batching axes shared by operand and indices).
-/
import proofs.«129013_j91225105367329_2_alg».proof.ReferenceIdeal
import Idealize.ShloMosaic.Lib.ValueIdx

noncomputable section

namespace Cert.ReferenceIdeal.Taps

open Cert.ReferenceIdeal Idealize.ShloMosaic Idealize.ShloMosaic.ValueIdx

variable [Facts]

/-- The gather's dimension numbers, under a short name. -/
abbrev laneGather : GatherDims S1x8x256x512x128 S256x512x1x1 S1x8x256x512x1 :=
  gather_S1x8x256x512x128_S256x512x1x1_S1x8x256x512x1_01_4_23_01_4_3_18111

/-! Which operand axes are the index's (the lane), the shared batching ones (the pixel's two) and the carried ones (the
    leading unit axis and the channel), decided on the literal lists. -/
private theorem a1_not_index : (⟨1, by decide⟩ : Fin 5) ∉ ([4] : List (Fin 5)) := by decide
private theorem a1_not_batch : (⟨1, by decide⟩ : Fin 5) ∉ ([2, 3] : List (Fin 5)) := by decide
private theorem a1_kept : (⟨1, by decide⟩ : Fin 5) ∈ S1x8x256x512x128.kept ([4] ++ [2, 3]) := by decide
private theorem a2_batch : (⟨2, by decide⟩ : Fin 5) ∈ ([2, 3] : List (Fin 5)) := by decide
private theorem a2_not_kept : (⟨2, by decide⟩ : Fin 5) ∉ S1x8x256x512x128.kept ([4] ++ [2, 3]) := by decide
private theorem a3_batch : (⟨3, by decide⟩ : Fin 5) ∈ ([2, 3] : List (Fin 5)) := by decide
private theorem a3_not_kept : (⟨3, by decide⟩ : Fin 5) ∉ S1x8x256x512x128.kept ([4] ++ [2, 3]) := by decide
private theorem a4_index : (⟨4, by decide⟩ : Fin 5) ∈ ([4] : List (Fin 5)) := by decide
private theorem a4_not_batch : (⟨4, by decide⟩ : Fin 5) ∉ ([2, 3] : List (Fin 5)) := by decide
private theorem a4_not_kept : (⟨4, by decide⟩ : Fin 5) ∉ S1x8x256x512x128.kept ([4] ++ [2, 3]) := by decide

/-- THE GATHER READ AT `(0, c, h, w, 0)`: the operand at channel `c`, pixel `(h, w)` and the lane the index array
    holds at `(h, w, 0, 0)`, read signed and clamped into `[0, 127]`. Axis by axis the operand index is the clamped start
    plus the batching coordinate plus the offset coordinate: on the unit axis all three are `0`; on the channel axis only
    the offset coordinate is not `0`, and it is `c`; on the pixel's two axes only the batching coordinate, `h` and `w`; on
    the lane axis only the start. -/
theorem gather_apply {α : Type} (x : S1x8x256x512x128.Idx → α) (idx : IVec S256x512x1x1 32)
    (c : Fin 8) (h : Fin 256) (w : Fin 512) :
    Host.gather laneGather x idx (ix5 (0 : Fin 1) c h w (0 : Fin 1))
      = x (ix5 (0 : Fin 1) c h w ⟨min (idx (ix4 h w (0 : Fin 1) (0 : Fin 1))).toInt.toNat 127, by omega⟩) := by
  unfold Host.gather
  congr 1
  funext a
  refine Fin.ext ?_
  show laneGather.start (ix5 (0 : Fin 1) c h w (0 : Fin 1)) idx a + laneGather.batchCoord (ix5 (0 : Fin 1) c h w (0 : Fin 1)) a
      + laneGather.offCoord (ix5 (0 : Fin 1) c h w (0 : Fin 1)) a = _
  match a with
  | ⟨0, _⟩ => rfl
  | ⟨1, _⟩ =>
    rw [GatherDims.batchCoord_eq_zero _ _ _ (by exact a1_not_batch)]
    unfold GatherDims.start GatherDims.offCoord
    rw [dif_neg (by exact a1_not_index), dif_pos (by exact a1_kept)]
    simp only [Nat.zero_add, Nat.add_zero]
    rfl
  | ⟨2, _⟩ =>
    rw [GatherDims.start_batching _ _ _ _ (by exact a2_batch), GatherDims.offCoord_eq_zero _ _ _ (by exact a2_not_kept)]
    unfold GatherDims.batchCoord
    rw [dif_pos (by exact a2_batch)]
    simp only [Nat.zero_add, Nat.add_zero]
    rfl
  | ⟨3, _⟩ =>
    rw [GatherDims.start_batching _ _ _ _ (by exact a3_batch), GatherDims.offCoord_eq_zero _ _ _ (by exact a3_not_kept)]
    unfold GatherDims.batchCoord
    rw [dif_pos (by exact a3_batch)]
    simp only [Nat.zero_add, Nat.add_zero]
    rfl
  | ⟨4, _⟩ =>
    rw [GatherDims.batchCoord_eq_zero _ _ _ (by exact a4_not_batch), GatherDims.offCoord_eq_zero _ _ _ (by exact a4_not_kept)]
    unfold GatherDims.start
    rw [dif_pos (by exact a4_index)]
    have hsi : laneGather.siIdx (ix5 (0 : Fin 1) c h w (0 : Fin 1))
        ⟨List.idxOf (⟨4, by decide⟩ : Fin S1x8x256x512x128.rank) laneGather.startIndexMap, List.idxOf_lt_length_iff.2 (by exact a4_index)⟩
        = ix4 h w (0 : Fin 1) (0 : Fin 1) := by
      funext b; refine Fin.ext ?_
      match b with
      | ⟨0, _⟩ => rfl
      | ⟨1, _⟩ => rfl
      | ⟨2, _⟩ => rfl
      | ⟨3, _⟩ => rfl
    rw [hsi]
    rfl

end Cert.ReferenceIdeal.Taps

end
-- ==== Proof.AllTrue.lean ====
import proofs.«129013_j91225105367329_2_alg».proof.ReferenceIdeal
import Idealize.ShloMosaic.Lib.ReduceAll

/-!
# A reduction by `and` over one-bit words that are all `1`

A one-operand reduction by `and`, started from the word `1`, over an array of one-bit words
that are all `1`, is `1` at every result index: the reduction at an index is a left fold of
`and` over the operand elements that reduce into it, and `1 and 1 = 1`. First for any shapes
and axes, then for the reduction of a `[256, 512, 1, 1]` array over its last axis, from the
scalar constant `1`.
-/

noncomputable section

namespace Cert.ReferenceIdeal.AllTrue

open Cert.ReferenceIdeal Cert.ReferenceIdeal.Facts₀ Idealize.ShloMosaic

/-- A left fold by `and` from `1` over words that are all `1` is `1`. -/
theorem foldl_andi_all_one {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; decide
    rw [List.foldl_cons, e]
    exact foldl_andi_all_one f hf l

/-- A reduction by `and`, from an initial array of `1`s, of an array of `1`s is `1` everywhere. -/
theorem reduce_andi_of_all_one {s t u : Shape} {axes : List (Fin s.rank)} (x : s.Idx → BitVec 1)
    (init : u.Idx → BitVec 1) (h : s.ReducesTo axes t) (hu : 0 < u.numel)
    (hx : ∀ i, x i = 1#1) (hinit : ∀ k, init k = 1#1) (j : t.Idx) :
    Host.reduce IntOp.andi x init h hu j = 1#1 := by
  rw [Host.reduce_eq_foldl, hinit]
  exact foldl_andi_all_one x hx _

variable [Facts]

/-- The reduction over the last axis of a `[256, 512, 1, 1]` array of `1`s, from the scalar
    constant `1`, is `1` at every index of the `[256, 512, 1]` result. -/
theorem reduce_all_one (b : IVec S256x512x1x1 1) (hb : ∀ i, b i = 1#1) (j : S256x512x1.Idx) :
    Host.reduce IntOp.andi b (constantI S_ 1 1#1) reducesTo_S256x512x1x1_S256x512x1_d3 h_S_ j = 1#1 :=
  reduce_andi_of_all_one b _ _ _ hb (fun _ => rfl) j

end Cert.ReferenceIdeal.AllTrue
-- ==== Proof.RefTaps.lean ====
import proofs.«129013_j91225105367329_2_alg».proof.Proof.RefRead
import proofs.«129013_j91225105367329_2_alg».proof.Proof.TentLaw
import proofs.«129013_j91225105367329_2_alg».proof.Proof.GatherRead
import proofs.«129013_j91225105367329_2_alg».proof.Proof.AllTrue
import Idealize.ShloMosaic.Lib.ValueIdx
import Idealize.ShloMosaic.PureOps.Ideal

/-!
# The reference's result, read at one element

The reference interpolates a cost volume `[1, 8, 131072, 128]` (channel, pixel, lane) along its lanes at one real
coordinate per pixel of a `256 × 512` image. At pixel `(h, w)` the coordinate is `X = flow(h, w) · 0.9921875`; with
`T = X - ⌊X⌋`, the result at channel `c` is

  `volume(c, h·512 + w, lane₀) · ((1 - T) · m₀) + volume(c, h·512 + w, lane₁) · (T · m₁)`,

where the lower tap is `⌊X⌋` as a signed 32-bit word, the upper tap is its wrapping successor, `mₖ` is the tap's mask
`[0 ≤ tap < 128]` as `0` or `1`, and `laneₖ` is the tap clipped into `[0, 127]`. This module reads that off the program
one operation at a time: each elementwise operation at an index is the operation on the elements; a reshape or a
broadcast re-indexes (the row-major arithmetic is decided at explicit coordinates); each lane read is a gather whose
index array holds the clipped tap, and its "all indices in bounds" flag is a reduction by `and` over words that are all
`1` (a clipped tap is within the lanes), so the read returns the gathered value and never the fill value. It holds for all
extended-real inputs.
-/

noncomputable section

namespace Cert.ReferenceIdeal.TapsRead

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The sample coordinate of pixel `(h, w)`: the flow entry times the program's constant. -/
abbrev Xc (x1 : (⟨S1x256x512x1, .f32⟩ : BufTy).Contents (Elt Ideal)) (h : Fin 256) (w : Fin 512) : EReal :=
  (x1 (ix4 (0 : Fin 1) h w (0 : Fin 1)) : EReal) * Ideal.ofBits .f32 0x3F7E0000#32

/-! ## Indices at explicit coordinates -/

theorem idx_v1_at (h : Fin 256) (w : Fin 512) :
    idx_main_v1 (ix3 (0 : Fin 1) h w) = ix4 (0 : Fin 1) h w (0 : Fin 1) := by
  funext a
  have hh := h.isLt
  have hw := w.isLt
  match a with
  | ⟨0, _⟩ => rfl
  | ⟨1, _⟩ => exact Fin.ext (by show ((0 * 256 + h.val) * 512 + w.val) / 512 % 256 = h.val; omega)
  | ⟨2, _⟩ => exact Fin.ext (by show ((0 * 256 + h.val) * 512 + w.val) / 1 % 512 = w.val; omega)
  | ⟨3, _⟩ => rfl

theorem idx_call2_v5_at (h : Fin 256) (w : Fin 512) :
    idx_main_v22 (idx_main_call2_v5 (ix4 h w (0 : Fin 1) (0 : Fin 1))) = ix3 (0 : Fin 1) h w := by
  funext a
  have hh := h.isLt
  have hw := w.isLt
  match a with
  | ⟨0, _⟩ => rfl
  | ⟨1, _⟩ => exact Fin.ext (by show (((h.val * 512 + w.val) * 1 + 0) * 1 + 0) / 512 % 256 = h.val; omega)
  | ⟨2, _⟩ => exact Fin.ext (by show (((h.val * 512 + w.val) * 1 + 0) * 1 + 0) / 1 % 512 = w.val; omega)

theorem idx_call3_v5_at (h : Fin 256) (w : Fin 512) :
    idx_main_v24 (idx_main_call3_v5 (ix4 h w (0 : Fin 1) (0 : Fin 1))) = ix3 (0 : Fin 1) h w := by
  funext a
  have hh := h.isLt
  have hw := w.isLt
  match a with
  | ⟨0, _⟩ => rfl
  | ⟨1, _⟩ => exact Fin.ext (by show (((h.val * 512 + w.val) * 1 + 0) * 1 + 0) / 512 % 256 = h.val; omega)
  | ⟨2, _⟩ => exact Fin.ext (by show (((h.val * 512 + w.val) * 1 + 0) * 1 + 0) / 1 % 512 = w.val; omega)

theorem idx_v0_at (c : Fin 8) (h : Fin 256) (w : Fin 512) (l : Fin 128) :
    idx_main_v0 (ix5 (0 : Fin 1) c h w l)
      = ix4 (0 : Fin 1) c (⟨h.val * 512 + w.val, by have := h.isLt; have := w.isLt; omega⟩ : Fin 131072) l := by
  funext a
  have hc := c.isLt
  have hh := h.isLt
  have hw := w.isLt
  have hl := l.isLt
  match a with
  | ⟨0, _⟩ => rfl
  | ⟨1, _⟩ => exact Fin.ext (by show (((((0 * 8 + c.val) * 256 + h.val) * 512 + w.val) * 128 + l.val) / 16777216 % 8) = c.val; omega)
  | ⟨2, _⟩ => exact Fin.ext (by show (((((0 * 8 + c.val) * 256 + h.val) * 512 + w.val) * 128 + l.val) / 128 % 131072) = h.val * 512 + w.val; omega)
  | ⟨3, _⟩ => exact Fin.ext (by show (((((0 * 8 + c.val) * 256 + h.val) * 512 + w.val) * 128 + l.val) % 128) = l.val; omega)

theorem idx_v26_at (c : Fin 8) (h : Fin 256) (w : Fin 512) :
    idx_main_v26 (ix4 (0 : Fin 1) c h w) = ix5 (0 : Fin 1) c h w (0 : Fin 1) := by
  funext a
  have hc := c.isLt
  have hh := h.isLt
  have hw := w.isLt
  match a with
  | ⟨0, _⟩ => rfl
  | ⟨1, _⟩ => exact Fin.ext (by show ((((0 * 8 + c.val) * 256 + h.val) * 512 + w.val) / 131072 % 8) = c.val; omega)
  | ⟨2, _⟩ => exact Fin.ext (by show ((((0 * 8 + c.val) * 256 + h.val) * 512 + w.val) / 512 % 256) = h.val; omega)
  | ⟨3, _⟩ => exact Fin.ext (by show ((((0 * 8 + c.val) * 256 + h.val) * 512 + w.val) / 1 % 512) = w.val; omega)
  | ⟨4, _⟩ => rfl

theorem idx_v28_at (c : Fin 8) (h : Fin 256) (w : Fin 512) :
    idx_main_v28 (ix4 (0 : Fin 1) c h w) = ix5 (0 : Fin 1) c h w (0 : Fin 1) := idx_v26_at c h w

theorem idx_v33_at (c : Fin 8) (h : Fin 256) (w : Fin 512) :
    idx_main_v32 (idx_main_v33 (ix4 (0 : Fin 1) c h w)) = ix3 (0 : Fin 1) h w := by
  funext a
  match a with
  | ⟨0, _⟩ => rfl
  | ⟨1, _⟩ => rfl
  | ⟨2, _⟩ => rfl

theorem idx_v37_at (c : Fin 8) (h : Fin 256) (w : Fin 512) :
    idx_main_v36 (idx_main_v37 (ix4 (0 : Fin 1) c h w)) = ix3 (0 : Fin 1) h w := idx_v33_at c h w

/-! ## The stages, one element at a time -/

section Stages
variable (x0 : (⟨S1x8x131072x128, .f32⟩ : BufTy).Contents (Elt Ideal))
variable (x1 : (⟨S1x256x512x1, .f32⟩ : BufTy).Contents (Elt Ideal))

/-- The coordinate array at pixel `(h, w)` is the sample coordinate. -/
theorem v3_at (h : Fin 256) (w : Fin 512) :
    val_main_v3 (F := Ideal) x1 (ix3 (0 : Fin 1) h w) = Xc x1 h w := by
  rw [val_main_v3_apply, val_main_v1_apply, idx_v1_at]
  rfl

/-- The fractional part. -/
theorem v5_eq (i : S1x256x512.Idx) :
    val_main_v5 (F := Ideal) x1 i
      = val_main_v3 (F := Ideal) x1 i - Ideal.liftRound Int.floor (val_main_v3 (F := Ideal) x1 i) := rfl

/-- The two taps' words. -/
theorem v6_eq (i : S1x256x512.Idx) :
    val_main_v6 (F := Ideal) x1 i = Cert.Tent.tap0 (val_main_v3 (F := Ideal) x1 i) := rfl
theorem v8_eq (i : S1x256x512.Idx) :
    val_main_v8 (F := Ideal) x1 i = Cert.Tent.tap1 (val_main_v3 (F := Ideal) x1 i) := rfl

/-- The two masks. -/
theorem v13_eq (i : S1x256x512.Idx) :
    val_main_v13 (F := Ideal) x1 i = Cert.Tent.inRange (Cert.Tent.tap0 (val_main_v3 (F := Ideal) x1 i)) := rfl
theorem v19_eq (i : S1x256x512.Idx) :
    val_main_v19 (F := Ideal) x1 i = Cert.Tent.inRange (Cert.Tent.tap1 (val_main_v3 (F := Ideal) x1 i)) := rfl

/-- The two clipped taps. -/
theorem v21_eq (i : S1x256x512.Idx) :
    val_main_v21 (F := Ideal) x1 i = Cert.Tent.clip (Cert.Tent.tap0 (val_main_v3 (F := Ideal) x1 i)) := rfl
theorem v23_eq (i : S1x256x512.Idx) :
    val_main_v23 (F := Ideal) x1 i = Cert.Tent.clip (Cert.Tent.tap1 (val_main_v3 (F := Ideal) x1 i)) := rfl

/-- The two weights. -/
theorem v31_eq (i : S1x256x512.Idx) :
    val_main_v31 (F := Ideal) x1 i
      = (Ideal.ofBits .f32 0x3F800000#32
          - (val_main_v3 (F := Ideal) x1 i - Ideal.liftRound Int.floor (val_main_v3 (F := Ideal) x1 i)))
        * (((Cert.Tent.inRange (Cert.Tent.tap0 (val_main_v3 (F := Ideal) x1 i))).toNat : ℝ) : EReal) := rfl
theorem v35_eq (i : S1x256x512.Idx) :
    val_main_v35 (F := Ideal) x1 i
      = (val_main_v3 (F := Ideal) x1 i - Ideal.liftRound Int.floor (val_main_v3 (F := Ideal) x1 i))
        * (((Cert.Tent.inRange (Cert.Tent.tap1 (val_main_v3 (F := Ideal) x1 i))).toNat : ℝ) : EReal) := rfl

/-- The index each read uses, at every index: a clipped tap, with negative values counted from the end. -/
theorem call2_v5_eq (i : S256x512x1x1.Idx) :
    val_main_call2_v5 (F := Ideal) x1 i
      = Cert.Tent.wrap (Cert.Tent.clip (Cert.Tent.tap0 (val_main_v3 (F := Ideal) x1 (idx_main_v22 (idx_main_call2_v5 i))))) := by
  rw [val_main_call2_v5_apply]
  show Cert.Tent.wrap (val_main_v22 (F := Ideal) x1 _) = _
  rw [val_main_v22_apply]
  rfl
theorem call3_v5_eq (i : S256x512x1x1.Idx) :
    val_main_call3_v5 (F := Ideal) x1 i
      = Cert.Tent.wrap (Cert.Tent.clip (Cert.Tent.tap1 (val_main_v3 (F := Ideal) x1 (idx_main_v24 (idx_main_call3_v5 i))))) := by
  rw [val_main_call3_v5_apply]
  show Cert.Tent.wrap (val_main_v24 (F := Ideal) x1 _) = _
  rw [val_main_v24_apply]
  rfl

theorem call2_v5_at (h : Fin 256) (w : Fin 512) :
    val_main_call2_v5 (F := Ideal) x1 (ix4 h w (0 : Fin 1) (0 : Fin 1))
      = Cert.Tent.wrap (Cert.Tent.clip (Cert.Tent.tap0 (Xc x1 h w))) := by
  rw [call2_v5_eq, idx_call2_v5_at, v3_at]
theorem call3_v5_at (h : Fin 256) (w : Fin 512) :
    val_main_call3_v5 (F := Ideal) x1 (ix4 h w (0 : Fin 1) (0 : Fin 1))
      = Cert.Tent.wrap (Cert.Tent.clip (Cert.Tent.tap1 (Xc x1 h w))) := by
  rw [call3_v5_eq, idx_call3_v5_at, v3_at]

/-- Every index read is within the 128 lanes … -/
theorem call2_v11_one (i : S256x512x1x1.Idx) : val_main_call2_v11 (F := Ideal) x1 i = 1#1 := by
  show IntOp.andi (IntOp.cmpi .sge (val_main_call2_v5 (F := Ideal) x1 i) 0#32)
      (IntOp.cmpi .sle (val_main_call2_v5 (F := Ideal) x1 i) 127#32) = 1#1
  rw [call2_v5_eq]
  exact Cert.Tent.wrap_clip_inb _
theorem call3_v11_one (i : S256x512x1x1.Idx) : val_main_call3_v11 (F := Ideal) x1 i = 1#1 := by
  show IntOp.andi (IntOp.cmpi .sge (val_main_call3_v5 (F := Ideal) x1 i) 0#32)
      (IntOp.cmpi .sle (val_main_call3_v5 (F := Ideal) x1 i) 127#32) = 1#1
  rw [call3_v5_eq]
  exact Cert.Tent.wrap_clip_inb _

/-- … so the reduction over them is `1` … -/
theorem call2_v12_one (j : S256x512x1.Idx) : val_main_call2_v12 (F := Ideal) x1 j = 1#1 := by
  unfold val_main_call2_v12
  exact Cert.ReferenceIdeal.AllTrue.reduce_andi_of_all_one _ _ _ _ (call2_v11_one x1) (fun _ => rfl) j
theorem call3_v12_one (j : S256x512x1.Idx) : val_main_call3_v12 (F := Ideal) x1 j = 1#1 := by
  unfold val_main_call3_v12
  exact Cert.ReferenceIdeal.AllTrue.reduce_andi_of_all_one _ _ _ _ (call3_v11_one x1) (fun _ => rfl) j

/-- … and each read returns the gathered value. -/
theorem v25_eq (i : S1x8x256x512x1.Idx) :
    val_main_v25 (F := Ideal) x0 x1 i = val_main_call2_v13 (F := Ideal) x0 x1 i := by
  rw [val_main_v25_apply, val_main_call2_v14_apply, call2_v12_one]
  exact if_pos rfl
theorem v27_eq (i : S1x8x256x512x1.Idx) :
    val_main_v27 (F := Ideal) x0 x1 i = val_main_call3_v13 (F := Ideal) x0 x1 i := by
  rw [val_main_v27_apply, val_main_call3_v14_apply, call3_v12_one]
  exact if_pos rfl

/-- The cost volume viewed `[1, 8, 256, 512, 128]`, read at `(0, c, h, w, l)`. -/
theorem v0_at (c : Fin 8) (h : Fin 256) (w : Fin 512) (l : Fin 128) :
    val_main_v0 (F := Ideal) x0 (ix5 (0 : Fin 1) c h w l)
      = x0 (ix4 (0 : Fin 1) c (⟨h.val * 512 + w.val, by have := h.isLt; have := w.isLt; omega⟩ : Fin 131072) l) := by
  rw [val_main_v0_apply, idx_v0_at]

/-- The two gathers at `(0, c, h, w, 0)`. -/
theorem call2_v13_at (c : Fin 8) (h : Fin 256) (w : Fin 512) :
    val_main_call2_v13 (F := Ideal) x0 x1 (ix5 (0 : Fin 1) c h w (0 : Fin 1))
      = val_main_v0 (F := Ideal) x0 (ix5 (0 : Fin 1) c h w
          (⟨Cert.Tent.lane (Cert.Tent.tap0 (Xc x1 h w)), Cert.Tent.lane_lt _⟩ : Fin 128)) := by
  have e0 : min (val_main_call2_v5 (F := Ideal) x1 (ix4 h w (0 : Fin 1) (0 : Fin 1))).toInt.toNat 127
      = Cert.Tent.lane (Cert.Tent.tap0 (Xc x1 h w)) := by
    rw [call2_v5_at, Cert.Tent.lane]
  have e : (⟨min (val_main_call2_v5 (F := Ideal) x1 (ix4 h w (0 : Fin 1) (0 : Fin 1))).toInt.toNat 127, by omega⟩ : Fin 128)
      = ⟨Cert.Tent.lane (Cert.Tent.tap0 (Xc x1 h w)), Cert.Tent.lane_lt _⟩ := Fin.ext e0
  unfold val_main_call2_v13
  rw [Cert.ReferenceIdeal.Taps.gather_apply, e]
theorem call3_v13_at (c : Fin 8) (h : Fin 256) (w : Fin 512) :
    val_main_call3_v13 (F := Ideal) x0 x1 (ix5 (0 : Fin 1) c h w (0 : Fin 1))
      = val_main_v0 (F := Ideal) x0 (ix5 (0 : Fin 1) c h w
          (⟨Cert.Tent.lane (Cert.Tent.tap1 (Xc x1 h w)), Cert.Tent.lane_lt _⟩ : Fin 128)) := by
  have e0 : min (val_main_call3_v5 (F := Ideal) x1 (ix4 h w (0 : Fin 1) (0 : Fin 1))).toInt.toNat 127
      = Cert.Tent.lane (Cert.Tent.tap1 (Xc x1 h w)) := by
    rw [call3_v5_at, Cert.Tent.lane]
  have e : (⟨min (val_main_call3_v5 (F := Ideal) x1 (ix4 h w (0 : Fin 1) (0 : Fin 1))).toInt.toNat 127, by omega⟩ : Fin 128)
      = ⟨Cert.Tent.lane (Cert.Tent.tap1 (Xc x1 h w)), Cert.Tent.lane_lt _⟩ := Fin.ext e0
  unfold val_main_call3_v13
  rw [Cert.ReferenceIdeal.Taps.gather_apply, e]

/-- The trailing unit axis dropped. -/
theorem v26_at (c : Fin 8) (h : Fin 256) (w : Fin 512) :
    val_main_v26 (F := Ideal) x0 x1 (ix4 (0 : Fin 1) c h w)
      = val_main_v25 (F := Ideal) x0 x1 (ix5 (0 : Fin 1) c h w (0 : Fin 1)) := by
  rw [val_main_v26_apply, idx_v26_at]
theorem v28_at (c : Fin 8) (h : Fin 256) (w : Fin 512) :
    val_main_v28 (F := Ideal) x0 x1 (ix4 (0 : Fin 1) c h w)
      = val_main_v27 (F := Ideal) x0 x1 (ix5 (0 : Fin 1) c h w (0 : Fin 1)) := by
  rw [val_main_v28_apply, idx_v28_at]

/-- The weights broadcast over the channels. -/
theorem v33_at (c : Fin 8) (h : Fin 256) (w : Fin 512) :
    val_main_v33 (F := Ideal) x1 (ix4 (0 : Fin 1) c h w) = val_main_v31 (F := Ideal) x1 (ix3 (0 : Fin 1) h w) := by
  rw [val_main_v33_apply, val_main_v32_apply, idx_v33_at]
theorem v37_at (c : Fin 8) (h : Fin 256) (w : Fin 512) :
    val_main_v37 (F := Ideal) x1 (ix4 (0 : Fin 1) c h w) = val_main_v35 (F := Ideal) x1 (ix3 (0 : Fin 1) h w) := by
  rw [val_main_v37_apply, val_main_v36_apply, idx_v37_at]

end Stages

/-- THE REFERENCE'S RESULT AT `(0, c, h, w)`: with `X` the sample coordinate of pixel `(h, w)` and `T = X - ⌊X⌋`, the
    cost volume at channel `c`, pixel `(h, w)` and the lower tap's lane, weighted `(1 - T)` times the lower mask, plus the
    same at the upper tap's lane, weighted `T` times the upper mask. For all extended-real inputs. -/
theorem ref_apply (x0 : (⟨S1x8x131072x128, .f32⟩ : BufTy).Contents (Elt Ideal))
    (x1 : (⟨S1x256x512x1, .f32⟩ : BufTy).Contents (Elt Ideal)) (c : Fin 8) (h : Fin 256) (w : Fin 512) :
    val_main_v39 (F := Ideal) x0 x1 (ix4 (0 : Fin 1) c h w)
      = x0 (ix4 (0 : Fin 1) c (⟨h.val * 512 + w.val, by have := h.isLt; have := w.isLt; omega⟩ : Fin 131072)
            (⟨Cert.Tent.lane (Cert.Tent.tap0 ((x1 (ix4 (0 : Fin 1) h w (0 : Fin 1)) : EReal) * Ideal.ofBits .f32 0x3F7E0000#32)),
              Cert.Tent.lane_lt _⟩ : Fin 128))
          * ((Ideal.ofBits .f32 0x3F800000#32
                - ((x1 (ix4 (0 : Fin 1) h w (0 : Fin 1)) : EReal) * Ideal.ofBits .f32 0x3F7E0000#32
                    - Ideal.liftRound Int.floor ((x1 (ix4 (0 : Fin 1) h w (0 : Fin 1)) : EReal) * Ideal.ofBits .f32 0x3F7E0000#32)))
              * (((Cert.Tent.inRange (Cert.Tent.tap0 ((x1 (ix4 (0 : Fin 1) h w (0 : Fin 1)) : EReal) * Ideal.ofBits .f32 0x3F7E0000#32))).toNat : ℝ) : EReal))
        + x0 (ix4 (0 : Fin 1) c (⟨h.val * 512 + w.val, by have := h.isLt; have := w.isLt; omega⟩ : Fin 131072)
            (⟨Cert.Tent.lane (Cert.Tent.tap1 ((x1 (ix4 (0 : Fin 1) h w (0 : Fin 1)) : EReal) * Ideal.ofBits .f32 0x3F7E0000#32)),
              Cert.Tent.lane_lt _⟩ : Fin 128))
          * (((x1 (ix4 (0 : Fin 1) h w (0 : Fin 1)) : EReal) * Ideal.ofBits .f32 0x3F7E0000#32
                - Ideal.liftRound Int.floor ((x1 (ix4 (0 : Fin 1) h w (0 : Fin 1)) : EReal) * Ideal.ofBits .f32 0x3F7E0000#32))
              * (((Cert.Tent.inRange (Cert.Tent.tap1 ((x1 (ix4 (0 : Fin 1) h w (0 : Fin 1)) : EReal) * Ideal.ofBits .f32 0x3F7E0000#32))).toNat : ℝ) : EReal)) := by
  rw [val_main_v39_apply, val_main_v34_apply, val_main_v38_apply,
    v26_at, v28_at, v25_eq, v27_eq, call2_v13_at, call3_v13_at, v0_at, v0_at,
    v33_at, v37_at, v31_eq, v35_eq, v3_at]
  rfl

end Cert.ReferenceIdeal.TapsRead
-- ==== Proof.Bridge.lean ====
/-
  The two programs compute one function.

  At a result element (0, c, h, w), with r = 512 h + w the pixel's row-major number, the kernel's program holds the sum over the
  128 lanes d of cost(c, r, d) times the tent weight max(0, 1 - |d - x|) at x = flow(h, w) times the program's constant; the
  reference holds cost(c, r, lane of floor x) times (1 - t) times its mask plus cost(c, r, lane of floor x + 1) times t times its
  mask, t = x - floor x. For a finite flow entry x is a real number, and the two are equal (TentLaw.lean); the reference's side of that reading is RefTaps.lean, the kernel's LaneSum.lean and KernelRun.lean.
-/
import proofs.«129013_j91225105367329_2_alg».proof.Proof.KernelRun
import proofs.«129013_j91225105367329_2_alg».proof.Proof.RefRead
import proofs.«129013_j91225105367329_2_alg».proof.Proof.RefTaps
import proofs.«129013_j91225105367329_2_alg».proof.Proof.TentLaw
import Idealize.ShloMosaic.Lib.ValueIdx
import Idealize.ShloMosaic.Lib.Pipeline.Value

noncomputable section

namespace Cert.Bridge

open Idealize.ShloMosaic Idealize.ShloMosaic.ValueIdx
open Cert.ReferenceIdeal.Gen

/-- The program's one constant, the f32 word of 127/128, is that real number. -/
theorem scale_real : Ideal.ofBits .f32 0x3F7E0000#32 = (((127 / 128 : ℝ)) : EReal) := by
  simp [Ideal.ofBits, Ideal.ieee, -EReal.coe_mul]
  norm_num

/-- The column of sample coordinates at pixel number 512 h + w is the flow entry of pixel (h, w) times the constant. -/
theorem coords_apply (flow : Cert.KernelIdeal.S1x256x512x1.Idx → EReal) (h : Fin 256) (w : Fin 512) :
    Cert.KernelIdeal.RunValue.coords flow (ix2 (⟨h.val * 512 + w.val, by omega⟩ : Fin 131072) (0 : Fin 1))
      = flow (ix4 (0 : Fin 1) h w (0 : Fin 1)) * Ideal.ofBits .f32 0x3F7E0000#32 := by
  unfold Cert.KernelIdeal.RunValue.coords
  refine (shapeCast_apply _ Cert.KernelIdeal.Facts₀.shapeCasts_S1x256x512_S131072x1 (ix2 (⟨h.val * 512 + w.val, by omega⟩ : Fin 131072) (0 : Fin 1))
    (ix3 (0 : Fin 1) h w) (by
      rewrite [Shape.rowMajor_val_three, Shape.rowMajor_val_two]
      show (0 * 256 + h.val) * 512 + w.val = (h.val * 512 + w.val) * 1 + 0
      omega)).trans ?_
  rw [mulf_apply]
  congr 1
  exact shapeCast_apply flow Cert.KernelIdeal.Facts₀.shapeCasts_S1x256x512x1_S1x256x512 (ix3 (0 : Fin 1) h w) (ix4 (0 : Fin 1) h w (0 : Fin 1)) (by
      rewrite [Shape.rowMajor_val_four, Shape.rowMajor_val_three]
      show ((0 * 256 + h.val) * 512 + w.val) * 1 + 0 = (0 * 256 + h.val) * 512 + w.val
      omega)

/-- INDEX BY INDEX the kernel program's result is the reference's last stage, when every flow entry is a real number. -/
theorem result_eq (cv : Cert.KernelIdeal.S1x8x131072x128.Idx → EReal) (flow : Cert.KernelIdeal.S1x256x512x1.Idx → EReal)
    (hflow : ∀ i, ∃ r : ℝ, flow i = (r : EReal)) :
    Cert.KernelIdeal.RunValue.result cv flow = Cert.ReferenceIdeal.Read.val_main_v39 (F := Ideal) cv flow := by
  funext i
  obtain ⟨a, c, h, w, rfl⟩ : ∃ (a : Fin 1) (c : Fin 8) (h : Fin 256) (w : Fin 512), i = ix4 a c h w :=
    ⟨i 0, i 1, i 2, i 3, eq_ix4 i⟩
  obtain rfl : a = 0 := Subsingleton.elim _ _
  rw [Cert.ReferenceIdeal.TapsRead.ref_apply]
  unfold Cert.KernelIdeal.RunValue.result
  have hw := w.isLt
  have hh := h.isLt
  refine (shapeCast_apply _ Cert.KernelIdeal.Facts₀.shapeCasts_S8x131072_S1x8x256x512 (ix4 (0 : Fin 1) c h w)
    (ix2 c (⟨h.val * 512 + w.val, by omega⟩ : Fin 131072)) (by
      rewrite [Shape.rowMajor_val_two, Shape.rowMajor_val_four]
      show c.val * 131072 + (h.val * 512 + w.val) = ((0 * 8 + c.val) * 256 + h.val) * 512 + w.val
      omega)).trans ?_
  show ∑ d : Fin 128, cv (ix4 (0 : Fin 1) c (⟨h.val * 512 + w.val, by omega⟩ : Fin 131072) d)
      * Cert.Tent.weight d (Cert.KernelIdeal.RunValue.coords flow (ix2 (⟨h.val * 512 + w.val, by omega⟩ : Fin 131072) (0 : Fin 1))) = _
  rw [coords_apply]
  obtain ⟨r, hr⟩ := hflow (ix4 (0 : Fin 1) h w (0 : Fin 1))
  rw [hr, scale_real, ← EReal.coe_mul, Cert.KernelIdeal.Body.one_f32]
  have key := Cert.Tent.tent (r * (127 / 128)) (fun d => cv (ix4 (0 : Fin 1) c (⟨h.val * 512 + w.val, by omega⟩ : Fin 131072) d))
  rw [zero_add] at key
  exact key

end Cert.Bridge

end
-- ==== Proof.lean ====
/-
  A one-dimensional bilinear sample of a cost volume along its 128 disparity lanes, two ways.

  The kernel's program scales the flow map by 127/128 into a column of sample coordinates x (one per pixel), and per pixel and
  channel sums the cost over all 128 lanes d against the tent weight max(0, 1 - |d - x|). The reference takes n = floor x and
  t = x - n, converts n to a 32-bit index, masks the two taps n and n + 1 that fall outside the lanes, clips them into the lanes,
  gathers the two costs and returns cost(n) (1 - t) [n in range] + cost(n + 1) t [n + 1 in range]. At the ideal values (floats
  extended reals, every operation exact) and for finite flow entries these are the same number: the tent weight is 1 - t at lane
  n, t at lane n + 1 and 0 at every other lane, and a tap outside the lanes meets no lane at all.

  The three frames: the two kernel programs' are the generated frame certificates; the reference has no kernel, and its frame is
  its run with the result dropped. The idealization rewrote nothing, so `preserves` is trivial. `algebraic`: the kernel
  program's run ends with its result at `RunValue.result` of the arguments (KernelRun.lean), the reference's at its last stage
  (RefRun.lean, RefRead.lean), and the two are equal index by index for finite flow (Bridge.lean, over TentLaw.lean, LaneSum.lean,
  RefTaps.lean); finiteness of the flow entries is read off the precondition (FiniteFlow.lean).
-/
import proofs.«129013_j91225105367329_2_alg».proof.Defs
import proofs.«129013_j91225105367329_2_alg».proof.Proof.Gen.Kernel
import proofs.«129013_j91225105367329_2_alg».proof.Proof.Gen.Kernel.Skeleton
import proofs.«129013_j91225105367329_2_alg».proof.Proof.Gen.Kernel.Launch
import proofs.«129013_j91225105367329_2_alg».proof.Proof.Gen.Kernel.Points
import proofs.«129013_j91225105367329_2_alg».proof.Proof.Gen.Kernel.Frame
import proofs.«129013_j91225105367329_2_alg».proof.Proof.Gen.KernelIdeal
import proofs.«129013_j91225105367329_2_alg».proof.Proof.Gen.KernelIdeal.Skeleton
import proofs.«129013_j91225105367329_2_alg».proof.Proof.Gen.KernelIdeal.Launch
import proofs.«129013_j91225105367329_2_alg».proof.Proof.Gen.KernelIdeal.Points
import proofs.«129013_j91225105367329_2_alg».proof.Proof.Gen.KernelIdeal.Frame
import proofs.«129013_j91225105367329_2_alg».proof.Proof.Gen.ReferenceIdeal
import proofs.«129013_j91225105367329_2_alg».proof.Proof.Gen.Pre_finite_inputs
import proofs.«129013_j91225105367329_2_alg».proof.Proof.RefRun
import proofs.«129013_j91225105367329_2_alg».proof.Proof.RefRead
import proofs.«129013_j91225105367329_2_alg».proof.Proof.KernelRun
import proofs.«129013_j91225105367329_2_alg».proof.Proof.FiniteFlow
import proofs.«129013_j91225105367329_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame certificate. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, with every float input finite, both idealized programs end with the same result:
    the interpolated cost, element by element. -/
theorem algebraic : Cert.algebraic_KernelIdeal_ReferenceIdeal := by
  intro m ρ m' ρ' hpre hagree
  refine ⟨fun c => Cert.KernelIdeal.RunValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2]
  exact (Cert.Bridge.result_eq _ _ (Cert.FiniteFlow.flow_real _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
